-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x768 : Shape := ⟨2, ![8192, 768]⟩
abbrev S128x768 : Shape := ⟨2, ![128, 768]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x768 : S_.BroadcastsInDim S8192x768 (![] : Fin 0 → Fin S8192x768.rank)
  reducesTo_S8192x768_S_d0_1 : S8192x768.ReducesTo [0, 1] S_
  bcast_S_S128x768 : S_.BroadcastsInDim S128x768 (![] : Fin 0 → Fin S128x768.rank)
  reducesTo_S128x768_S_d0_1 : S128x768.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8192x128 .f32) (main_arg1 : FVec F S8192x768 .f32) (main_arg2 : FVec F S128x768 .f32) (main_arg3 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  let main_v9 : FVec F S128x768 .f32 := Host.absf main_arg2
  let main_cst_2 : FVec F S_ .f32 := constant S_ .f32 0x7F800000#32
  let main_v10 : FVec F S128x768 .f32 := broadcastInDim S128x768 ![] bcast_S_S128x768 main_cst_2
  let main_v11 : IVec S128x768 1 := cmpf .olt main_v9 main_v10
  let main_c_3 : IVec S_ 1 := constantI S_ 1 1#1
  let main_v12 : IVec S_ 1 := (fun x v => Host.reduce IntOp.andi x v reducesTo_S128x768_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8192x128 : Shape := ⟨2, ![8192, 128]⟩
abbrev S8192x768 : Shape := ⟨2, ![8192, 768]⟩
abbrev S128x768 : Shape := ⟨2, ![128, 768]⟩
abbrev S128 : Shape := ⟨1, ![128]⟩
abbrev S1024x768 : Shape := ⟨2, ![1024, 768]⟩
abbrev S1024x128 : Shape := ⟨2, ![1024, 128]⟩
abbrev S1x128 : Shape := ⟨2, ![1, 128]⟩
abbrev S1024 : Shape := ⟨1, ![1024]⟩
abbrev S1024x1 : Shape := ⟨2, ![1024, 1]⟩
abbrev S8192x8192 : Shape := ⟨2, ![8192, 8192]⟩
abbrev S512x128 : Shape := ⟨2, ![512, 128]⟩
abbrev S512x8192 : Shape := ⟨2, ![512, 8192]⟩

abbrev nBuf : Space → Nat
  | .hbm => 7
  | .vmem => 15
  | .smem => 0
  | _ => 0

abbrev bufTy : (tb : Table) → Fin (tcTables nBuf tb) → BufTy
  | .hbm, ⟨0, _⟩ => ⟨S8192x128, .f32⟩
  | .hbm, ⟨1, _⟩ => ⟨S8192x768, .f32⟩
  | .hbm, ⟨2, _⟩ => ⟨S128x768, .f32⟩
  | .hbm, ⟨3, _⟩ => ⟨S128, .f32⟩
  | .hbm, ⟨4, _⟩ => ⟨S8192x128, .bf16⟩
  | .hbm, ⟨5, _⟩ => ⟨S8192x128, .bf16⟩
  | .hbm, ⟨6, _⟩ => ⟨S8192x8192, .f32⟩
  | .local _ .vmem, ⟨0, _⟩ => ⟨S1024x768, .f32⟩
  | .local _ .vmem, ⟨1, _⟩ => ⟨S1024x768, .f32⟩
  | .local _ .vmem, ⟨2, _⟩ => ⟨S1024x128, .f32⟩
  | .local _ .vmem, ⟨3, _⟩ => ⟨S1024x128, .f32⟩
  | .local _ .vmem, ⟨4, _⟩ => ⟨S128x768, .f32⟩
  | .local _ .vmem, ⟨5, _⟩ => ⟨S128, .f32⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S512x128, .bf16⟩
  | .local _ .vmem, ⟨11, _⟩ => ⟨S512x128, .bf16⟩
  | .local _ .vmem, ⟨12, _⟩ => ⟨S8192x128, .bf16⟩
  | .local _ .vmem, ⟨13, _⟩ => ⟨S512x8192, .f32⟩
  | .local _ .vmem, ⟨14, _⟩ => ⟨S512x8192, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1024x768_S1024x768_0_0 : ∀ a, (![0, 0] : Fin 2 → Nat) a + S1024x768.size a ≤ S1024x768.size a
  h_S1024x768 : 0 < S1024x768.numel
  bitsLt_bf16_f32 : FTy.bits .bf16 < FTy.bits .f32
  inb_S128x768_S128x768_0_0 : ∀ a, (![0, 0] : Fin 2 → Nat) a + S128x768.size a ≤ S128x768.size a
  h_S128x768 : 0 < S128x768.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S512x8192_S512x8192_0_0 : ∀ a, (![0, 0] : Fin 2 → Nat) a + S512x8192.size a ≤ S512x8192.size a
  h_S512x8192 : 0 < S512x8192.numel
  dot_S1024x768_S128x768_S1024x128_1_1_0_0_n_n_wf : DotDims.WF S1024x768 S128x768 S1024x128 [1] [1] [0] [0] [] []
  dot_S512x128_S8192x128_S512x8192_1_1_0_0_n_n_wf : DotDims.WF S512x128 S8192x128 S512x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .f32 = 32 ∨ (Rect.block (s := S8192x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x768.size a ≤ S128x768.size a
  hwx0_2 : ∀ i : grid0.Coords, EltTy.bits .f32 = 32 ∨ (Rect.block (s := S128x768) S128x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .bf16 = 32 ∨ (Rect.block (s := S8192x128) S1024x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S8192x128.size a
  hwx0_5 : ∀ i : grid0.Coords, EltTy.bits .bf16 = 32 ∨ (Rect.block (s := S8192x128) S1024x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S8192x128.size a
  hwx1_0 : ∀ i : grid1.Coords, EltTy.bits .bf16 = 32 ∨ (Rect.block (s := S8192x128) S512x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .bf16 = 32 ∨ (Rect.block (s := S8192x128) S8192x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x8192.size a ≤ S8192x8192.size a
  hwx1_2 : ∀ i : grid1.Coords, EltTy.bits .f32 = 32 ∨ (Rect.block (s := S8192x8192) S512x8192.size (cc1_transform_2 i) (hinb1_2 i)).WholeWords (EltTy.packing .f32)

variable [Facts₀]

def dot_S1024x768_S128x768_S1024x128_1_1_0_0_n_n : DotDims S1024x768 S128x768 S1024x128 where
  lhsContracting := [1]
  rhsContracting := [1]
  lhsNonContracting := [0]
  rhsNonContracting := [0]
  lhsBatch := []
  rhsBatch := []
  wf := dot_S1024x768_S128x768_S1024x128_1_1_0_0_n_n_wf
def dot_S512x128_S8192x128_S512x8192_1_1_0_0_n_n : DotDims S512x128 S8192x128 S512x8192 where
  lhsContracting := [1]
  rhsContracting := [1]
  lhsNonContracting := [0]
  rhsNonContracting := [0]
  lhsBatch := []
  rhsBatch := []
  wf := dot_S512x128_S8192x128_S512x8192_1_1_0_0_n_n_wf

abbrev win0_0 : Pipeline.Window sig grid0 :=
  Pipeline.Window.ofSpec (Memref.whole main_arg1) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1024x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0_1) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x8192.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x128 : Shape := ⟨2, ![8192, 128]⟩
abbrev S8192x768 : Shape := ⟨2, ![8192, 768]⟩
abbrev S128x768 : Shape := ⟨2, ![128, 768]⟩
abbrev S128 : Shape := ⟨1, ![128]⟩
abbrev S768x128 : Shape := ⟨2, ![768, 128]⟩
abbrev S1x128 : Shape := ⟨2, ![1, 128]⟩
abbrev S_ : Shape := ⟨0, ![]⟩
abbrev S8192 : Shape := ⟨1, ![8192]⟩
abbrev S8192x1 : Shape := ⟨2, ![8192, 1]⟩
abbrev S128x8192 : Shape := ⟨2, ![128, 8192]⟩
abbrev S8192x8192 : Shape := ⟨2, ![8192, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x768, .f32⟩
  | .hbm, ⟨2, _⟩ => ⟨S128x768, .f32⟩
  | .hbm, ⟨3, _⟩ => ⟨S128, .f32⟩
  | .hbm, ⟨4, _⟩ => ⟨S768x128, .f32⟩
  | .hbm, ⟨5, _⟩ => ⟨S8192x128, .f32⟩
  | .hbm, ⟨6, _⟩ => ⟨S1x128, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x128, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S128x8192, .f32⟩
  | .hbm, ⟨30, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_call1_v0 : Ref sig .tc := ⟨.hbm, 17, rfl⟩
abbrev main_call1_cst : Ref sig .tc := ⟨.hbm, 18, rfl⟩
abbrev main_call1_v1 : Ref sig .tc := ⟨.hbm, 19, rfl⟩
abbrev main_call1_v2 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]

class Facts₀ : Prop where
  transposes_S128x768_S768x128_1_0 : S128x768.Transposes [1, 0] S768x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  dot_S8192x768_S768x128_S8192x128_1_0_0_1_n_n_wf : DotDims.WF S8192x768 S768x128 S8192x128 [1] [0] [0] [1] [] []
  dot_S8192x128_S128x8192_S8192x8192_1_0_0_1_n_n_wf : DotDims.WF S8192x128 S128x8192 S8192x8192 [1] [0] [0] [1] [] []

variable [Facts₀]

def dot_S8192x768_S768x128_S8192x128_1_0_0_1_n_n : DotDims S8192x768 S768x128 S8192x128 where
  lhsContracting := [1]
  rhsContracting := [0]
  lhsNonContracting := [0]
  rhsNonContracting := [1]
  lhsBatch := []
  rhsBatch := []
  wf := dot_S8192x768_S768x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Spec.lean ====
/-
  Cosine similarity of every vision row with every projected text row, as one function of the four argument arrays.

  A text row x (768 entries) is projected to 128 entries, entry d being the inner product of x with row d of the weights
  plus the bias at d. A row a of 128 entries is divided by its Euclidean norm clamped below by a small positive constant:
  a d / max (sqrt (sum of squares of a)) eps. The result at (n, m) is the inner product of the normalised vision row n
  with the normalised projected text row m. Everything is over the extended reals; no law beyond reading both programs
  index by index is needed, so nothing here asks the entries to be finite.
-/
import Idealize.ShloMosaic.PureOps.Ideal
import Idealize.ShloMosaic.Lib.ValueIdx

noncomputable section

open scoped BigOperators

namespace Cert.CosSim

open Idealize.ShloMosaic Idealize.ShloMosaic.ValueIdx

/-- The lower clamp of a norm: the value of the f32 word 0x322BCC77, the same word in both programs. -/
def eps : EReal := Ideal.ofBits .f32 0x322BCC77#32

/-- A row's Euclidean norm, clamped below by `eps`. -/
def rowNorm (a : Fin 128 → EReal) : EReal := max (Ideal.sqrt (∑ d : Fin 128, a d * a d)) eps

/-- A row divided by its clamped norm. -/
def unitRow (a : Fin 128 → EReal) (d : Fin 128) : EReal := Ideal.div (a d) (rowNorm a)

/-- A text row projected: entry `d` is the row's inner product with row `d` of the weights, plus the bias at `d`. -/
def proj (x : Fin 768 → EReal) (w : Fin 128 → Fin 768 → EReal) (b : Fin 128 → EReal) (d : Fin 128) : EReal :=
  (∑ k : Fin 768, x k * w d k) + b d

/-- A matrix of extended reals over a literal rank-2 shape. -/
abbrev Mat (n0 n1 : Nat) : Type := (⟨2, ![n0, n1]⟩ : Shape).Idx → EReal

/-- Row `r` of a matrix. -/
def rowOf {n0 n1 : Nat} (X : Mat n0 n1) (r : Fin n0) : Fin n1 → EReal := fun k => X (ix2 r k)

/-- The rows of `v`, each divided by its clamped norm (any number of rows). -/
def visionUnit {n : Nat} (v : Mat n 128) : Mat n 128 := fun i => unitRow (rowOf v (i 0)) (i 1)

/-- The rows of `x`, each projected by `w` and `b` and then divided by its clamped norm (any number of rows). -/
def textUnit {n : Nat} (x : Mat n 768) (w : Mat 128 768) (b : (⟨1, ![128]⟩ : Shape).Idx → EReal) : Mat n 128 :=
  fun i => unitRow (proj (rowOf x (i 0)) (rowOf w) (fun d => b (ix1 d))) (i 1)

/-- Every row of `p` against every row of `q`: entry `(n, m)` is the inner product of row `n` of `p` with row `m` of `q`. -/
def dots {n m : Nat} (p : Mat n 128) (q : Mat m 128) : Mat n m :=
  fun i => ∑ d : Fin 128, p (ix2 (i 0) d) * q (ix2 (i 1) d)

/-- The whole result: the normalised vision rows against the normalised projected text rows. -/
def cosSim (v : Mat 8192 128) (x : Mat 8192 768) (w : Mat 128 768) (b : (⟨1, ![128]⟩ : Shape).Idx → EReal) : Mat 8192 8192 :=
  dots (visionUnit v) (textUnit x w b)

/-! ## Reading a block of rows instead of the whole array

Each normalised entry depends only on its own row (and, for the text side, on the whole weights and bias), and an inner
product only on its two rows; so a block of rows of the result is the same function of the matching block of rows of
the operand. -/

theorem visionUnit_congr {n N : Nat} (v : Mat n 128) (V : Mat N 128) (j : (⟨2, ![n, 128]⟩ : Shape).Idx)
    (J : (⟨2, ![N, 128]⟩ : Shape).Idx) (hv : ∀ k : Fin 128, v (ix2 (j 0) k) = V (ix2 (J 0) k)) (hd : j 1 = J 1) :
    visionUnit v j = visionUnit V J := by
  show unitRow (rowOf v (j 0)) (j 1) = unitRow (rowOf V (J 0)) (J 1)
  rw [show rowOf v (j 0) = rowOf V (J 0) from funext hv, hd]

theorem textUnit_congr {n N : Nat} (x : Mat n 768) (X : Mat N 768) (w W : Mat 128 768)
    (b B : (⟨1, ![128]⟩ : Shape).Idx → EReal) (j : (⟨2, ![n, 128]⟩ : Shape).Idx) (J : (⟨2, ![N, 128]⟩ : Shape).Idx)
    (hx : ∀ k : Fin 768, x (ix2 (j 0) k) = X (ix2 (J 0) k)) (hw : w = W) (hb : b = B) (hd : j 1 = J 1) :
    textUnit x w b j = textUnit X W B J := by
  show unitRow (proj (rowOf x (j 0)) (rowOf w) (fun d => b (ix1 d))) (j 1)
    = unitRow (proj (rowOf X (J 0)) (rowOf W) (fun d => B (ix1 d))) (J 1)
  rw [show rowOf x (j 0) = rowOf X (J 0) from funext hx, hw, hb, hd]

theorem dots_congr {n N m M : Nat} (p : Mat n 128) (P : Mat N 128) (q : Mat m 128) (Q : Mat M 128)
    (j : (⟨2, ![n, m]⟩ : Shape).Idx) (J : (⟨2, ![N, M]⟩ : Shape).Idx)
    (hp : ∀ k : Fin 128, p (ix2 (j 0) k) = P (ix2 (J 0) k)) (hq : ∀ k : Fin 128, q (ix2 (j 1) k) = Q (ix2 (J 1) k)) :
    dots p q j = dots P Q J := by
  show ∑ d : Fin 128, p (ix2 (j 0) d) * q (ix2 (j 1) d) = ∑ d : Fin 128, P (ix2 (J 0) d) * Q (ix2 (J 1) d)
  exact Finset.sum_congr rfl fun d _ => by rw [hp d, hq d]

end Cert.CosSim

end
-- ==== Proof.LibKeepdims.lean ====
/-
  Layout operations a keepdims reduction meets, read at an index written by coordinates: a vector cast to a one-column
  matrix, a one-column matrix broadcast along its rows, a vector seen as a [1, 1, a] block and back, and a load through a
  unit-stride rectangle that offsets only the last axis of a rank-3 block.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` block cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a]` vector cast to `[1, 1, a]` reads, at `(u, v, i)`, the operand at `i`. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; simp)

/-- A load through the unit-stride rectangle of sizes `[n0, n1, m]` at offsets `[0, 0, o]` of an `[n0, n1, n2]` block
    reads, at `(a, b, j)`, the block at `(a, b, o + j)`. -/
theorem ld_last3_apply {Val : EltTy → Type} {e : EltTy} {n0 n1 n2 m : ℕ} (o : ℕ) (X : (⟨3, ![n0, n1, n2]⟩ : Shape).Idx → Val e)
    (inb : ∀ a, (![0, 0, o] : Fin 3 → ℕ) a + (![n0, n1, m] : Fin 3 → ℕ) a ≤ (⟨3, ![n0, n1, n2]⟩ : Shape).size a)
    (a : Fin n0) (b : Fin n1) (j : Fin m) (k : Fin n2) (hk : k.val = o + j.val) :
    View.ld X (Rect.unit (s := ⟨3, ![n0, n1, n2]⟩) ![0, 0, o] ![n0, n1, m] inb) (ix3 a b j) = X (ix3 a b k) := by
  show X _ = X _
  refine congrArg X (funext fun ax => Fin.ext ?_)
  match ax with
  | ⟨0, _⟩ => show 0 + 1 * a.val = a.val; omega
  | ⟨1, _⟩ => show 0 + 1 * b.val = b.val; omega
  | ⟨2, _⟩ => show o + 1 * j.val = k.val; omega

end Idealize.ShloMosaic.Keepdims
-- ==== Proof.RowsPayload.lean ====
/-
  What the first kernel's body stores, read entry by entry. From a block of 1024 text rows, the weights and the bias it
  stores the projected rows divided by their clamped norms; from a block of 1024 vision rows, those rows divided by their
  clamped norms. The matrix product into a zero accumulator is the plain sum over the 768 contracted entries, the lane
  reduction the plain sum over the 128 entries of a row, the rounding to sixteen bits the identity on extended reals.
-/
import proofs.«159569_j28037546508716_2_alg».proof.Proof.Gen.KernelIdeal.Skeleton
import proofs.«159569_j28037546508716_2_alg».proof.Proof.Spec
import proofs.«159569_j28037546508716_2_alg».proof.Proof.LibKeepdims
import Idealize.ShloMosaic.Lib.ValueLayout
import Idealize.ShloMosaic.PureOps.Ideal.Laws

noncomputable section

open scoped BigOperators

namespace Cert.KernelIdeal.RowsPayload

open Cert.KernelIdeal Cert.KernelIdeal.Gen Cert.CosSim
open Idealize.ShloMosaic Idealize.ShloMosaic.ValueIdx Idealize.ShloMosaic.Keepdims

/-- The sum of squares along a row: the lane reduction of `u * u` at row `r`. -/
theorem sumsq_row (u : FVec Ideal S1024x128 .f32) (h : S1024x128.Reduces [1] S1024) (hφ : FKind.Formats .f32)
    (hacc : (0x00000000#32 : BitVec 32) = FKind.add.neutral .f32 hφ) (r : Fin 1024) :
    multiReduction .add [1] S1024 (mulf u u) 0x00000000#32 h hφ hacc (ix1 r) = ∑ d : Fin 128, rowOf u r d * rowOf u r d := by
  refine (Ideal.multiReduction_add_single (mulf u u) _ h hφ hacc (ix1 r)).trans ?_
  refine Finset.sum_congr rfl fun k _ => ?_
  have e : h.lift (ix1 r) k = ix2 r k := funext fun a => Fin.ext (by match a with | ⟨0, _⟩ => rfl | ⟨1, _⟩ => rfl)
  show u (h.lift (ix1 r) k) * u (h.lift (ix1 r) k) = u (ix2 r k) * u (ix2 r k)
  rw [e]
  rfl

/-- The column of clamped norms: at row `r` it is the clamped norm of row `r` of `u`. -/
theorem normCol (u : FVec Ideal S1024x128 .f32) (h : S1024x128.Reduces [1] S1024) (hφ : FKind.Formats .f32)
    (hacc : (0x00000000#32 : BitVec 32) = FKind.add.neutral .f32 hφ) (hc : S1024.ShapeCasts S1024x1) (r : Fin 1024) :
    maximumf (sqrt (shapeCast S1024x1 (multiReduction .add [1] S1024 (mulf u u) 0x00000000#32 h hφ hacc) hc))
        (broadcast S1024x1 (Scalar.ofBits (F := Ideal) .f32 0x322BCC77#32)) (ix2 r (0 : Fin 1))
      = rowNorm (rowOf u r) := by
  show max (Ideal.sqrt (shapeCast S1024x1 (multiReduction .add [1] S1024 (mulf u u) 0x00000000#32 h hφ hacc) hc (ix2 r (0 : Fin 1)))) eps = _
  rw [shapeCast_a_a1_apply, sumsq_row]
  rfl

/-- A row divided by the broadcast column of clamped norms. -/
theorem unit_apply (u : FVec Ideal S1024x128 .f32) (h : S1024x128.Reduces [1] S1024) (hφ : FKind.Formats .f32)
    (hacc : (0x00000000#32 : BitVec 32) = FKind.add.neutral .f32 hφ) (hc : S1024.ShapeCasts S1024x1)
    (hb : S1024x1.Broadcasts S1024x128) (r : Fin 1024) (d : Fin 128) :
    divf u (broadcastTo S1024x128 (maximumf (sqrt (shapeCast S1024x1 (multiReduction .add [1] S1024 (mulf u u) 0x00000000#32 h hφ hacc) hc))
        (broadcast S1024x1 (Scalar.ofBits (F := Ideal) .f32 0x322BCC77#32))) hb) (ix2 r d)
      = unitRow (rowOf u r) d := by
  show Ideal.div (u (ix2 r d)) (broadcastTo S1024x128 _ hb (ix2 r d)) = Ideal.div (u (ix2 r d)) (rowNorm (rowOf u r))
  rw [broadcastTo_a1_ab_apply, normCol]

/-- The vision half of the body: the block's rows divided by their clamped norms. -/
theorem visionPayload (v : Vec Ideal S1024x128 .f32) : k0_pay2 v = visionUnit (n := 1024) v := by
  funext j
  obtain ⟨r, d, rfl⟩ : ∃ (r : Fin 1024) (d : Fin 128), j = ix2 r d := ⟨j 0, j 1, eq_ix2 j⟩
  unfold k0_pay2
  exact unit_apply v _ _ _ _ _ r d

/-! ## The projection: a matrix product contracting the last axis of both operands -/

theorem lhs_proj_0 (i : S1024x128.Idx) (q : dot_S1024x768_S128x768_S1024x128_1_1_0_0_n_n.contr.Idx) :
    (dot_S1024x768_S128x768_S1024x128_1_1_0_0_n_n.lhsIdx i q 0).val = (i 0).val := by
  unfold DotDims.lhsIdx
  rw [dif_neg (show ¬(0 : Fin S1024x768.rank) ∈ dot_S1024x768_S128x768_S1024x128_1_1_0_0_n_n.lhsBatch by decide), dif_pos (show (0 : Fin S1024x768.rank) ∈ dot_S1024x768_S128x768_S1024x128_1_1_0_0_n_n.lhsNonContracting by decide)]
  rfl
theorem lhs_proj_1 (i : S1024x128.Idx) (q : dot_S1024x768_S128x768_S1024x128_1_1_0_0_n_n.contr.Idx) :
    (dot_S1024x768_S128x768_S1024x128_1_1_0_0_n_n.lhsIdx i q 1).val = (q ⟨0, by decide⟩).val :=
  dot_S1024x768_S128x768_S1024x128_1_1_0_0_n_n.lhsIdx_val_of_single rfl i q
theorem rhs_proj_0 (i : S1024x128.Idx) (q : dot_S1024x768_S128x768_S1024x128_1_1_0_0_n_n.contr.Idx) :
    (dot_S1024x768_S128x768_S1024x128_1_1_0_0_n_n.rhsIdx i q 0).val = (i 1).val := by
  unfold DotDims.rhsIdx
  rw [dif_neg (show ¬(0 : Fin S128x768.rank) ∈ dot_S1024x768_S128x768_S1024x128_1_1_0_0_n_n.rhsBatch by decide), dif_pos (show (0 : Fin S128x768.rank) ∈ dot_S1024x768_S128x768_S1024x128_1_1_0_0_n_n.rhsNonContracting by decide)]
  rfl
theorem rhs_proj_1 (i : S1024x128.Idx) (q : dot_S1024x768_S128x768_S1024x128_1_1_0_0_n_n.contr.Idx) :
    (dot_S1024x768_S128x768_S1024x128_1_1_0_0_n_n.rhsIdx i q 1).val = (q ⟨0, by decide⟩).val :=
  dot_S1024x768_S128x768_S1024x128_1_1_0_0_n_n.rhsIdx_val_of_single rfl i q

/-- Entry `(r, d)` of the product into the zero accumulator: the inner product of row `r` of `x` with row `d` of `w`. -/
theorem matmul_proj (x : FVec Ideal S1024x768 .bf16) (w : FVec Ideal S128x768 .bf16) (r : Fin 1024) (d : Fin 128) :
    matmul dot_S1024x768_S128x768_S1024x128_1_1_0_0_n_n none x w (constant S1024x128 .f32 0x00000000#32) (ix2 r d)
      = ∑ k : Fin 768, x (ix2 r k) * w (ix2 d k) := by
  simp only [matmul]
  rw [Ideal.matmul_constant_zero_apply, ← Equiv.sum_comp (contrEquiv1 dot_S1024x768_S128x768_S1024x128_1_1_0_0_n_n 768 rfl rfl).symm]
  refine Finset.sum_congr rfl fun k _ => ?_
  have hk := contrEquiv1_symm_val dot_S1024x768_S128x768_S1024x128_1_1_0_0_n_n 768 rfl rfl k
  have el : dot_S1024x768_S128x768_S1024x128_1_1_0_0_n_n.lhsIdx (ix2 r d) ((contrEquiv1 dot_S1024x768_S128x768_S1024x128_1_1_0_0_n_n 768 rfl rfl).symm k) = ix2 r k := funext fun a => Fin.ext (by
    match a with
    | ⟨0, _⟩ => exact lhs_proj_0 _ _
    | ⟨1, _⟩ => exact (lhs_proj_1 _ _).trans hk)
  have er : dot_S1024x768_S128x768_S1024x128_1_1_0_0_n_n.rhsIdx (ix2 r d) ((contrEquiv1 dot_S1024x768_S128x768_S1024x128_1_1_0_0_n_n 768 rfl rfl).symm k) = ix2 d k := funext fun a => Fin.ext (by
    match a with
    | ⟨0, _⟩ => exact rhs_proj_0 _ _
    | ⟨1, _⟩ => exact (rhs_proj_1 _ _).trans hk)
  rw [el, er]

/-- The projected block: the product plus the bias broadcast over the rows, at `(r, d)`. -/
theorem proj_apply (x : FVec Ideal S1024x768 .bf16) (w : FVec Ideal S128x768 .bf16) (b : FVec Ideal S128 .f32)
    (hs : S128.ShapeCasts S1x128) (hb : S1x128.Broadcasts S1024x128) (r : Fin 1024) (d : Fin 128) :
    addf (matmul dot_S1024x768_S128x768_S1024x128_1_1_0_0_n_n none x w (constant S1024x128 .f32 0x00000000#32))
        (broadcastTo S1024x128 (shapeCast S1x128 b hs) hb) (ix2 r d)
      = proj (rowOf x r) (rowOf w) (fun d => b (ix1 d)) d := by
  show matmul dot_S1024x768_S128x768_S1024x128_1_1_0_0_n_n none x w (constant S1024x128 .f32 0x00000000#32) (ix2 r d)
      + broadcastTo S1024x128 (shapeCast S1x128 b hs) hb (ix2 r d) = (∑ k : Fin 768, x (ix2 r k) * w (ix2 d k)) + b (ix1 d)
  rw [matmul_proj, broadcastTo_1b_ab_apply, shapeCast_a_1a_apply]

/-- The text half of the body: the block's rows projected, then divided by their clamped norms. -/
theorem textPayload (x : Vec Ideal S1024x768 .f32) (w : Vec Ideal S128x768 .f32) (b : Vec Ideal S128 .f32) :
    k0_pay1 x w b = textUnit (n := 1024) x w b := by
  funext j
  obtain ⟨r, d, rfl⟩ : ∃ (r : Fin 1024) (d : Fin 128), j = ix2 r d := ⟨j 0, j 1, eq_ix2 j⟩
  unfold k0_pay1
  refine (unit_apply _ _ _ _ _ _ r d).trans ?_
  show unitRow (rowOf _ r) d = unitRow (proj (rowOf x r) (rowOf w) (fun d => b (ix1 d))) d
  refine congrArg (fun a => unitRow a d) (funext fun k => ?_)
  exact proj_apply _ _ b _ _ r k

end Cert.KernelIdeal.RowsPayload

end
-- ==== Proof.RowsArrays.lean ====
/-
  The two arrays the first kernel leaves, each as one function of the arrays it found. Point t of its grid reads rows
  1024 t … 1024 t + 1023 of the text and vision arrays (and the whole weights and bias) and writes back the same rows of
  its two results; a normalised row depends only on its own row, so what point t writes back is its block of rows of
  the normalised whole arrays, and the eight blocks cover all 8192 rows.
-/
import proofs.«159569_j28037546508716_2_alg».proof.Proof.Gen.KernelIdeal.Frame
import proofs.«159569_j28037546508716_2_alg».proof.Proof.RowsPayload
import Idealize.ShloMosaic.Lib.Pipeline.Value

set_option maxRecDepth 16384

noncomputable section

namespace Cert.KernelIdeal.RowsArrays

open Cert.KernelIdeal Cert.KernelIdeal.Gen Cert.KernelIdeal.RowsPayload Cert.CosSim
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row-blocked windows sit at block row `t`, the whole-array ones at zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- What point `t` writes back through the text result's window: its block of rows of the normalised projected text. -/
theorem flushed_text (c : Dev nD) (t : Fin cfg0.N) :
    (dat0 V c).flushed 4 t = ((cfg0.win 4).blk t).view.read (Elt Ideal)
      (textUnit (n := 8192) (V c main_arg1) (V c main_arg2) (V c main_arg3)) := by
  show (cfg0.win 4).cut (grid0.coords t) ((dat0 V c).after 4 t) = _
  rw [after0_4]
  unfold out0_4
  rw [View.canon_unit_zero hz2]
  simp only [View.ld_unit_zero (S := S1024x768) hz2, View.ld_unit_zero (S := S128x768) hz2, View.ld_unit_zero (S := S128) hz1]
  rw [textPayload]
  obtain ⟨e00, e01, e10, e11, e20, e21, e30, e40, e41, e50, e51⟩ := idx_facts t
  funext j
  show textUnit (n := 1024) (iblk0 V c 0 t) (iblk0 V c 2 t) (iblk0 V c 3 t) j
    = textUnit (n := 8192) (V c main_arg1) (V c main_arg2) (V c main_arg3) (((cfg0.win 4).blk t).view.emb j)
  refine textUnit_congr _ _ _ _ _ _ j _ (fun k => ?_) ?_ ?_ ?_
  · show V c main_arg1 (((cfg0.win 0).blk t).view.emb (ix2 (j 0) k)) = V c main_arg1 (ix2 ((((cfg0.win 4).blk t).view.emb j) 0) k)
    refine congrArg (V c main_arg1) (funext fun a => Fin.ext ?_)
    match a with
    | ⟨0, _⟩ => show win0_0.index t (0 : Fin 2) * 1024 + 1 * (j 0).val = win0_4.index t (0 : Fin 2) * 1024 + 1 * (j 0).val; rw [e00, e40]
    | ⟨1, _⟩ => show win0_0.index t (1 : Fin 2) * 768 + 1 * k.val = k.val; rw [e01]; omega
  · funext y
    show V c main_arg2 (((cfg0.win 2).blk t).view.emb y) = V c main_arg2 y
    refine congrArg (V c main_arg2) (funext fun a => Fin.ext ?_)
    match a with
    | ⟨0, _⟩ => show win0_2.index t (0 : Fin 2) * 128 + 1 * (y 0).val = (y 0).val; rw [e20]; omega
    | ⟨1, _⟩ => show win0_2.index t (1 : Fin 2) * 768 + 1 * (y 1).val = (y 1).val; rw [e21]; omega
  · funext y
    show V c main_arg3 (((cfg0.win 3).blk t).view.emb y) = V c main_arg3 y
    refine congrArg (V c main_arg3) (funext fun a => Fin.ext ?_)
    match a with
    | ⟨0, _⟩ => show win0_3.index t (0 : Fin 1) * 128 + 1 * (y 0).val = (y 0).val; rw [e30]; omega
  · refine Fin.ext ?_
    show (j 1).val = win0_4.index t (1 : Fin 2) * 128 + 1 * (j 1).val
    rw [e41]; omega

/-- What point `t` writes back through the vision result's window: its block of rows of the normalised vision rows. -/
theorem flushed_vision (c : Dev nD) (t : Fin cfg0.N) :
    (dat0 V c).flushed 5 t = ((cfg0.win 5).blk t).view.read (Elt Ideal) (visionUnit (n := 8192) (V c main_arg0)) := by
  show (cfg0.win 5).cut (grid0.coords t) ((dat0 V c).after 5 t) = _
  rw [after0_5]
  unfold out0_5
  rw [View.canon_unit_zero hz2]
  simp only [View.ld_unit_zero (S := S1024x128) hz2]
  rw [visionPayload]
  obtain ⟨e00, e01, e10, e11, e20, e21, e30, e40, e41, e50, e51⟩ := idx_facts t
  funext j
  show visionUnit (n := 1024) (iblk0 V c 1 t) j
    = visionUnit (n := 8192) (V c main_arg0) (((cfg0.win 5).blk t).view.emb j)
  refine visionUnit_congr _ _ j _ (fun k => ?_) ?_
  · show V c main_arg0 (((cfg0.win 1).blk t).view.emb (ix2 (j 0) k)) = V c main_arg0 (ix2 ((((cfg0.win 5).blk t).view.emb j) 0) k)
    refine congrArg (V c main_arg0) (funext fun a => Fin.ext ?_)
    match a with
    | ⟨0, _⟩ => show win0_1.index t (0 : Fin 2) * 1024 + 1 * (j 0).val = win0_5.index t (0 : Fin 2) * 1024 + 1 * (j 0).val; rw [e10, e50]
    | ⟨1, _⟩ => show win0_1.index t (1 : Fin 2) * 128 + 1 * k.val = k.val; rw [e11]; omega
  · refine Fin.ext ?_
    show (j 1).val = win0_5.index t (1 : Fin 2) * 128 + 1 * (j 1).val
    rw [e51]; omega

/-- An index of the text result is in point `t`'s block iff each coordinate is in the block's range on its axis. -/
theorem mem_blk_text (t : Fin cfg0.N) (i : S8192x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v0_0).slice (win0_4.rect t)).set ↔ _
  rw [View.set_slice_whole, Rect.mem_set_unit]
  exact Iff.rfl

theorem mem_blk_vision (t : Fin cfg0.N) (i : S8192x128.Idx) :
    i ∈ ((cfg0.win 5).blk t).view.set ↔ ∀ a : Fin 2, win0_5.index t a * S1024x128.size a ≤ (i a).val ∧ (i a).val < win0_5.index t a * S1024x128.size a + S1024x128.size a := by
  show i ∈ ((View.whole main_v0_1).slice (win0_5.rect t)).set ↔ _
  rw [View.set_slice_whole, Rect.mem_set_unit]
  exact Iff.rfl

/-- The point whose block holds row `r`. -/
def pointOf (i : S8192x128.Idx) : Fin cfg0.N := ⟨(i 0).val / 1024, by
  have h : (i 0).val < 8192 := (i 0).isLt
  rw [show cfg0.N = 8 from N_0]; omega⟩

/-- THE TEXT RESULT after the first kernel: the normalised projected text rows of the arrays it found. -/
theorem final_text (c : Dev nD) :
    (dat0 V c).arrAt 4 cfg0.N = textUnit (n := 8192) (V c main_arg1) (V c main_arg2) (V c main_arg3) :=
  (dat0 V c).arrAt_eq_of_cover 4 _ (fun t _ => flushed_text V c t) fun i => by
    have h0 : (i 0).val < 8192 := (i 0).isLt
    have h1 : (i 1).val < 128 := (i 1).isLt
    refine ⟨pointOf i, flush0_4 _, ?_⟩
    obtain ⟨e00, e01, e10, e11, e20, e21, e30, e40, e41, e50, e51⟩ := idx_facts (pointOf i)
    have hp : (pointOf i).val = (i 0).val / 1024 := rfl
    rw [mem_blk_text]
    intro a
    match a with
    | ⟨0, _⟩ => show win0_4.index (pointOf i) (0 : Fin 2) * 1024 ≤ (i 0).val ∧ (i 0).val < win0_4.index (pointOf i) (0 : Fin 2) * 1024 + 1024; rw [e40, hp]; omega
    | ⟨1, _⟩ => show win0_4.index (pointOf i) (1 : Fin 2) * 128 ≤ (i 1).val ∧ (i 1).val < win0_4.index (pointOf i) (1 : Fin 2) * 128 + 128; rw [e41]; omega

/-- THE VISION RESULT after the first kernel: the normalised vision rows of the array it found. -/
theorem final_vision (c : Dev nD) :
    (dat0 V c).arrAt 5 cfg0.N = visionUnit (n := 8192) (V c main_arg0) :=
  (dat0 V c).arrAt_eq_of_cover 5 _ (fun t _ => flushed_vision V c t) fun i => by
    have h0 : (i 0).val < 8192 := (i 0).isLt
    have h1 : (i 1).val < 128 := (i 1).isLt
    refine ⟨pointOf i, flush0_5 _, ?_⟩
    obtain ⟨e00, e01, e10, e11, e20, e21, e30, e40, e41, e50, e51⟩ := idx_facts (pointOf i)
    have hp : (pointOf i).val = (i 0).val / 1024 := rfl
    rw [mem_blk_vision]
    intro a
    match a with
    | ⟨0, _⟩ => show win0_5.index (pointOf i) (0 : Fin 2) * 1024 ≤ (i 0).val ∧ (i 0).val < win0_5.index (pointOf i) (0 : Fin 2) * 1024 + 1024; rw [e50, hp]; omega
    | ⟨1, _⟩ => show win0_5.index (pointOf i) (1 : Fin 2) * 128 ≤ (i 1).val ∧ (i 1).val < win0_5.index (pointOf i) (1 : Fin 2) * 128 + 128; rw [e51]; omega

end Cert.KernelIdeal.RowsArrays

end
-- ==== Proof.DotsPayload.lean ====
/-
  What the second kernel's body stores, read entry by entry: from a slab of 512 normalised vision rows and all 8192
  normalised text rows, entry (r, m) is the inner product of vision row r with text row m — the matrix product
  contracting the last axis of both operands into a zero accumulator.
-/
import proofs.«159569_j28037546508716_2_alg».proof.Proof.Gen.KernelIdeal.Skeleton
import proofs.«159569_j28037546508716_2_alg».proof.Proof.Spec
import Idealize.ShloMosaic.Lib.Pipeline.Value
import Idealize.ShloMosaic.PureOps.Ideal.Laws

noncomputable section

open scoped BigOperators

namespace Cert.KernelIdeal.DotsPayload

open Cert.KernelIdeal Cert.KernelIdeal.Gen Cert.CosSim
open Idealize.ShloMosaic Idealize.ShloMosaic.ValueIdx

theorem lhs_dots_0 (i : S512x8192.Idx) (q : dot_S512x128_S8192x128_S512x8192_1_1_0_0_n_n.contr.Idx) :
    (dot_S512x128_S8192x128_S512x8192_1_1_0_0_n_n.lhsIdx i q 0).val = (i 0).val := by
  unfold DotDims.lhsIdx
  rw [dif_neg (show ¬(0 : Fin S512x128.rank) ∈ dot_S512x128_S8192x128_S512x8192_1_1_0_0_n_n.lhsBatch by decide), dif_pos (show (0 : Fin S512x128.rank) ∈ dot_S512x128_S8192x128_S512x8192_1_1_0_0_n_n.lhsNonContracting by decide)]
  rfl
theorem lhs_dots_1 (i : S512x8192.Idx) (q : dot_S512x128_S8192x128_S512x8192_1_1_0_0_n_n.contr.Idx) :
    (dot_S512x128_S8192x128_S512x8192_1_1_0_0_n_n.lhsIdx i q 1).val = (q ⟨0, by decide⟩).val :=
  dot_S512x128_S8192x128_S512x8192_1_1_0_0_n_n.lhsIdx_val_of_single rfl i q
theorem rhs_dots_0 (i : S512x8192.Idx) (q : dot_S512x128_S8192x128_S512x8192_1_1_0_0_n_n.contr.Idx) :
    (dot_S512x128_S8192x128_S512x8192_1_1_0_0_n_n.rhsIdx i q 0).val = (i 1).val := by
  unfold DotDims.rhsIdx
  rw [dif_neg (show ¬(0 : Fin S8192x128.rank) ∈ dot_S512x128_S8192x128_S512x8192_1_1_0_0_n_n.rhsBatch by decide), dif_pos (show (0 : Fin S8192x128.rank) ∈ dot_S512x128_S8192x128_S512x8192_1_1_0_0_n_n.rhsNonContracting by decide)]
  rfl
theorem rhs_dots_1 (i : S512x8192.Idx) (q : dot_S512x128_S8192x128_S512x8192_1_1_0_0_n_n.contr.Idx) :
    (dot_S512x128_S8192x128_S512x8192_1_1_0_0_n_n.rhsIdx i q 1).val = (q ⟨0, by decide⟩).val :=
  dot_S512x128_S8192x128_S512x8192_1_1_0_0_n_n.rhsIdx_val_of_single rfl i q

/-- Entry `(r, m)` of the product into the zero accumulator: row `r` of `p` against row `m` of `q`. -/
theorem matmul_dots (p : FVec Ideal S512x128 .bf16) (q : FVec Ideal S8192x128 .bf16) (r : Fin 512) (m : Fin 8192) :
    matmul dot_S512x128_S8192x128_S512x8192_1_1_0_0_n_n none p q (constant S512x8192 .f32 0x00000000#32) (ix2 r m)
      = ∑ k : Fin 128, p (ix2 r k) * q (ix2 m k) := by
  simp only [matmul]
  rw [Ideal.matmul_constant_zero_apply, ← Equiv.sum_comp (contrEquiv1 dot_S512x128_S8192x128_S512x8192_1_1_0_0_n_n 128 rfl rfl).symm]
  refine Finset.sum_congr rfl fun k _ => ?_
  have hk := contrEquiv1_symm_val dot_S512x128_S8192x128_S512x8192_1_1_0_0_n_n 128 rfl rfl k
  have el : dot_S512x128_S8192x128_S512x8192_1_1_0_0_n_n.lhsIdx (ix2 r m) ((contrEquiv1 dot_S512x128_S8192x128_S512x8192_1_1_0_0_n_n 128 rfl rfl).symm k) = ix2 r k := funext fun a => Fin.ext (by
    match a with
    | ⟨0, _⟩ => exact lhs_dots_0 _ _
    | ⟨1, _⟩ => exact (lhs_dots_1 _ _).trans hk)
  have er : dot_S512x128_S8192x128_S512x8192_1_1_0_0_n_n.rhsIdx (ix2 r m) ((contrEquiv1 dot_S512x128_S8192x128_S512x8192_1_1_0_0_n_n 128 rfl rfl).symm k) = ix2 m k := funext fun a => Fin.ext (by
    match a with
    | ⟨0, _⟩ => exact rhs_dots_0 _ _
    | ⟨1, _⟩ => exact (rhs_dots_1 _ _).trans hk)
  rw [el, er]

/-- The body's one store: every row of the vision slab against every text row. -/
theorem dotsPayload (p : Vec Ideal S512x128 .bf16) (q : Vec Ideal S8192x128 .bf16) :
    k1_pay1 p q = dots (n := 512) (m := 8192) p q := by
  funext j
  obtain ⟨r, m, rfl⟩ : ∃ (r : Fin 512) (m : Fin 8192), j = ix2 r m := ⟨j 0, j 1, eq_ix2 j⟩
  unfold k1_pay1
  simp only [shapeCast_self]
  exact matmul_dots p q r m

end Cert.KernelIdeal.DotsPayload

end
-- ==== Proof.DotsArrays.lean ====
/-
  The array the second kernel leaves, as one function of the arrays it found. Point t of its grid reads rows
  512 t … 512 t + 511 of the normalised vision rows and all the normalised text rows, and writes back the same rows of
  the result; an inner product depends only on its two rows, so what point t writes back is its slab of rows of the
  whole table of inner products, and the sixteen slabs cover all 8192 rows.
-/
import proofs.«159569_j28037546508716_2_alg».proof.Proof.Gen.KernelIdeal.Frame
import proofs.«159569_j28037546508716_2_alg».proof.Proof.DotsPayload
import Idealize.ShloMosaic.Lib.Pipeline.Value

set_option maxRecDepth 16384

noncomputable section

namespace Cert.KernelIdeal.DotsArrays

open Cert.KernelIdeal Cert.KernelIdeal.Gen Cert.KernelIdeal.DotsPayload Cert.CosSim
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the row-blocked windows sit at block row `t`, the whole-array one at zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back: its slab of rows of the table of inner products of the two arrays' rows. -/
theorem flushed_dots (c : Dev nD) (t : Fin cfg1.N) :
    (dat1 V c).flushed 2 t = ((cfg1.win 2).blk t).view.read (Elt Ideal)
      (dots (n := 8192) (m := 8192) (V c main_v0_1) (V c main_v0_0)) := by
  show (cfg1.win 2).cut (grid1.coords t) ((dat1 V c).after 2 t) = _
  rw [after1_2]
  unfold out1_2
  rw [View.canon_unit_zero hz2]
  simp only [View.ld_unit_zero (S := S512x128) hz2, View.ld_unit_zero (S := S8192x128) hz2]
  rw [dotsPayload]
  obtain ⟨e00, e01, e10, e11, e20, e21⟩ := idx_facts t
  funext j
  show dots (n := 512) (m := 8192) (iblk1 V c 0 t) (iblk1 V c 1 t) j
    = dots (n := 8192) (m := 8192) (V c main_v0_1) (V c main_v0_0) (((cfg1.win 2).blk t).view.emb j)
  refine dots_congr _ _ _ _ j _ (fun k => ?_) (fun k => ?_)
  · show V c main_v0_1 (((cfg1.win 0).blk t).view.emb (ix2 (j 0) k)) = V c main_v0_1 (ix2 ((((cfg1.win 2).blk t).view.emb j) 0) k)
    refine congrArg (V c main_v0_1) (funext fun a => Fin.ext ?_)
    match a with
    | ⟨0, _⟩ => show win1_0.index t (0 : Fin 2) * 512 + 1 * (j 0).val = win1_2.index t (0 : Fin 2) * 512 + 1 * (j 0).val; rw [e00, e20]
    | ⟨1, _⟩ => show win1_0.index t (1 : Fin 2) * 128 + 1 * k.val = k.val; rw [e01]; omega
  · show V c main_v0_0 (((cfg1.win 1).blk t).view.emb (ix2 (j 1) k)) = V c main_v0_0 (ix2 ((((cfg1.win 2).blk t).view.emb j) 1) k)
    refine congrArg (V c main_v0_0) (funext fun a => Fin.ext ?_)
    match a with
    | ⟨0, _⟩ => show win1_1.index t (0 : Fin 2) * 8192 + 1 * (j 1).val = win1_2.index t (1 : Fin 2) * 8192 + 1 * (j 1).val; rw [e10, e21]
    | ⟨1, _⟩ => show win1_1.index t (1 : Fin 2) * 128 + 1 * k.val = k.val; rw [e11]; omega

/-- An index of the result is in point `t`'s slab iff each coordinate is in the slab's range on its axis. -/
theorem mem_blk_dots (t : Fin cfg1.N) (i : S8192x8192.Idx) :
    i ∈ ((cfg1.win 2).blk t).view.set ↔ ∀ a : Fin 2, win1_2.index t a * S512x8192.size a ≤ (i a).val ∧ (i a).val < win1_2.index t a * S512x8192.size a + S512x8192.size a := by
  show i ∈ ((View.whole main_v1).slice (win1_2.rect t)).set ↔ _
  rw [View.set_slice_whole, Rect.mem_set_unit]
  exact Iff.rfl

/-- The point whose slab holds row `i 0`. -/
def pointOf (i : S8192x8192.Idx) : Fin cfg1.N := ⟨(i 0).val / 512, by
  have h : (i 0).val < 8192 := (i 0).isLt
  rw [show cfg1.N = 16 from N_1]; omega⟩

/-- THE RESULT after the second kernel: every row of the first array it found against every row of the second. -/
theorem final_dots (c : Dev nD) :
    (dat1 V c).arrAt 2 cfg1.N = dots (n := 8192) (m := 8192) (V c main_v0_1) (V c main_v0_0) :=
  (dat1 V c).arrAt_eq_of_cover 2 _ (fun t _ => flushed_dots V c t) fun i => by
    have h0 : (i 0).val < 8192 := (i 0).isLt
    have h1 : (i 1).val < 8192 := (i 1).isLt
    refine ⟨pointOf i, flush1_2 _, ?_⟩
    obtain ⟨e00, e01, e10, e11, e20, e21⟩ := idx_facts (pointOf i)
    have hp : (pointOf i).val = (i 0).val / 512 := rfl
    rw [mem_blk_dots]
    intro a
    match a with
    | ⟨0, _⟩ => show win1_2.index (pointOf i) (0 : Fin 2) * 512 ≤ (i 0).val ∧ (i 0).val < win1_2.index (pointOf i) (0 : Fin 2) * 512 + 512; rw [e20, hp]; omega
    | ⟨1, _⟩ => show win1_2.index (pointOf i) (1 : Fin 2) * 8192 ≤ (i 1).val ∧ (i 1).val < win1_2.index (pointOf i) (1 : Fin 2) * 8192 + 8192; rw [e21]; omega

end Cert.KernelIdeal.DotsArrays

end
-- ==== Proof.KernelRun.lean ====
/-
  The kernel program's run with its result named. The program is two kernels in a row: the first normalises the vision
  rows and the projected text rows, the second takes every inner product of a normalised vision row with a normalised
  text row. After the run the result array holds what the second kernel's write-backs leave, the second kernel having
  found the first kernel's two results where the first left them; reading each kernel's final arrays as whole-array
  functions gives the cosine-similarity function of the four arguments.
-/
import proofs.«159569_j28037546508716_2_alg».proof.Proof.Gen.KernelIdeal.Frame
import proofs.«159569_j28037546508716_2_alg».proof.Proof.RowsArrays
import proofs.«159569_j28037546508716_2_alg».proof.Proof.DotsArrays

set_option maxRecDepth 16384

noncomputable section

namespace Cert.KernelIdeal.RunValue

open Cert.KernelIdeal Cert.KernelIdeal.Gen Cert.CosSim
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the result array holds once both kernels have run: the cosine-similarity function of the arguments. -/
theorem result_value (c : Dev nD) :
    W2 m ρ c (Proc.devRef .tc main_v1)
      = cosSim (m ((c : Thread nD τ).loc main_arg0)) (m ((c : Thread nD τ).loc main_arg1))
          (m ((c : Thread nD τ).loc main_arg2)) (m ((c : Thread nD τ).loc main_arg3)) := by
  refine (W2_arr m ρ c 2).trans ?_
  refine (DotsArrays.final_dots (V1 m ρ) c).trans ?_
  have hv : V1 m ρ c main_v0_1 = visionUnit (n := 8192) (m ((c : Thread nD τ).loc main_arg0)) :=
    (W1_arr m ρ c 5).trans (RowsArrays.final_vision (V0 m ρ) c)
  have ht : V1 m ρ c main_v0_0 = textUnit (n := 8192) (m ((c : Thread nD τ).loc main_arg1))
      (m ((c : Thread nD τ).loc main_arg2)) (m ((c : Thread nD τ).loc main_arg3)) :=
    (W1_arr m ρ c 4).trans (RowsArrays.final_text (V0 m ρ) c)
  exact congrArg₂ (fun p q => dots (n := 8192) (m := 8192) p q) hv ht

set_option backward.isDefEq.respectTransparency.types false in
/-- Every weakly fair execution of the program terminates, nothing faulting, with the result array at what the second
    kernel's write-backs leave and the argument arrays as launched. -/
theorem run_result : θ_run defs (onTc (τ := τ) (main (F := Ideal))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

/-- The run with the result read: the result array ends at the cosine-similarity function of the arguments, the
    arguments as launched. -/
theorem run : θ_run defs (onTc (τ := τ) (main (F := Ideal))) ⟨m, fun _ => 0, ρ⟩ (fun r => ∀ c : Dev nD,
      r.2.mem ((c.tc : Thread nD τ).loc main_v1)
        = cosSim (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_value m ρ c), (h c).2⟩) (run_result m ρ)

end Cert.KernelIdeal.RunValue

end
-- ==== Proof.RefValue.lean ====
/-
  The reference, read entry by entry, is the cosine-similarity function of its four arguments: its projection is the
  sum over the 768 contracted entries plus the bias, each of its two norms the square root of a row's sum of squares
  (added to a zero initial value) clamped below by the same constant, its last product the sum over the 128 entries of
  a vision row against a text row (the transposes only rename indices).
-/
import proofs.«159569_j28037546508716_2_alg».proof.Proof.Gen.ReferenceIdeal.Read
import proofs.«159569_j28037546508716_2_alg».proof.Proof.Spec

noncomputable section

open scoped BigOperators

namespace Cert.ReferenceIdeal.RefValue

open Cert.ReferenceIdeal Cert.ReferenceIdeal.Read Cert.CosSim
open Idealize.ShloMosaic Idealize.ShloMosaic.ValueIdx

/-! ## The composed index maps, by coordinates -/

theorem idx_vnorm (n : Fin 8192) (d k : Fin 128) :
    idx_main_call0_v1 (idx_main_call0_v2 (idx_main_v11 (ix2 n d))) k = ix2 n k :=
  funext fun a => Fin.ext (by match a with | ⟨0, _⟩ => rfl | ⟨1, _⟩ => rfl)
theorem idx_tnorm (m : Fin 8192) (d k : Fin 128) :
    idx_main_call1_v1 (idx_main_call1_v2 (idx_main_v13 (ix2 m d))) k = ix2 m k :=
  funext fun a => Fin.ext (by match a with | ⟨0, _⟩ => rfl | ⟨1, _⟩ => rfl)
theorem idx_proj_l (m : Fin 8192) (d : Fin 128) (k : Fin 768) : lidx_main_v1 (ix2 m d) k = ix2 m k :=
  funext fun a => Fin.ext (by match a with | ⟨0, _⟩ => rfl | ⟨1, _⟩ => rfl)
theorem idx_proj_r (m : Fin 8192) (d : Fin 128) (k : Fin 768) : idx_main_v0 (ridx_main_v1 (ix2 m d) k) = ix2 d k :=
  funext fun a => Fin.ext (by match a with | ⟨0, _⟩ => rfl | ⟨1, _⟩ => rfl)
theorem idx_bias (m : Fin 8192) (d : Fin 128) : idx_main_v2 (idx_main_v3 (ix2 m d)) = ix1 d :=
  funext fun a => Fin.ext (by match a with | ⟨0, _⟩ => rfl)
theorem idx_dots_l (n m : Fin 8192) (k : Fin 128) : lidx_main_v16 (ix2 n m) k = ix2 n k :=
  funext fun a => Fin.ext (by match a with | ⟨0, _⟩ => rfl | ⟨1, _⟩ => rfl)
theorem idx_dots_r (n m : Fin 8192) (k : Fin 128) : idx_main_v15 (ridx_main_v16 (ix2 n m) k) = ix2 m k :=
  funext fun a => Fin.ext (by match a with | ⟨0, _⟩ => rfl | ⟨1, _⟩ => rfl)

/-! ## The stages -/

/-- The normalised vision rows. -/
theorem vision_apply (x0 : Mat 8192 128) (n : Fin 8192) (d : Fin 128) :
    val_main_v12 (F := Ideal) x0 (ix2 n d) = visionUnit x0 (ix2 n d) := by
  rw [val_main_v12_apply, val_main_v11_apply, val_main_v7_apply, val_main_v5_apply, val_main_call0_v2_apply,
    val_main_call0_v1_apply, val_main_v6_apply, val_main_cst_apply, val_main_call0_cst_apply]
  simp only [val_main_call0_v0_apply, idx_vnorm, Ideal.hostDivf_def, Ideal.maximumf_def, Ideal.hostUnary_sqrt_def,
    Ideal.mulf_def, Ideal.ofBits_def, Ideal.ofBits_zero_f32, zero_add]
  rfl

/-- The projected text rows. -/
theorem proj_apply (x1 : Mat 8192 768) (x2 : Mat 128 768) (x3 : (⟨1, ![128]⟩ : Shape).Idx → EReal) (m : Fin 8192) (d : Fin 128) :
    val_main_v4 (F := Ideal) x1 x2 x3 (ix2 m d) = proj (rowOf x1 m) (rowOf x2) (fun d => x3 (ix1 d)) d := by
  rw [val_main_v4_apply, val_main_v1_apply, val_main_v3_apply, val_main_v2_apply]
  simp only [val_main_v0_apply, idx_proj_l, idx_proj_r, idx_bias, Ideal.addf_def]
  rfl

/-- The normalised projected text rows. -/
theorem text_apply (x1 : Mat 8192 768) (x2 : Mat 128 768) (x3 : (⟨1, ![128]⟩ : Shape).Idx → EReal) (m : Fin 8192) (d : Fin 128) :
    val_main_v14 (F := Ideal) x1 x2 x3 (ix2 m d) = textUnit x1 x2 x3 (ix2 m d) := by
  rw [val_main_v14_apply, val_main_v13_apply, val_main_v10_apply, val_main_v8_apply, val_main_call1_v2_apply,
    val_main_call1_v1_apply, val_main_v9_apply, val_main_cst_0_apply, val_main_call1_cst_apply]
  simp only [val_main_call1_v0_apply, idx_tnorm, proj_apply, Ideal.hostDivf_def, Ideal.maximumf_def, Ideal.hostUnary_sqrt_def,
    Ideal.mulf_def, Ideal.ofBits_def, Ideal.ofBits_zero_f32, zero_add]
  rfl

/-- The reference's result is the cosine-similarity function of its arguments. -/
theorem result_eq (x0 : Mat 8192 128) (x1 : Mat 8192 768) (x2 : Mat 128 768) (x3 : (⟨1, ![128]⟩ : Shape).Idx → EReal) :
    val_main_v16 (F := Ideal) x0 x1 x2 x3 = cosSim x0 x1 x2 x3 := by
  funext i
  obtain ⟨n, m, rfl⟩ : ∃ (n m : Fin 8192), i = ix2 n m := ⟨i 0, i 1, eq_ix2 i⟩
  rw [val_main_v16_apply]
  simp only [val_main_v15_apply, idx_dots_l, idx_dots_r, vision_apply, text_apply]
  rfl

end Cert.ReferenceIdeal.RefValue

end
-- ==== Proof.lean ====
/- The kernel program and its reference compute the same table of cosine similarities, entry by entry over the extended
   reals. For 8192 vision rows v_n (128 entries) and 8192 text rows x_m (768 entries), weights w (128 rows of 768) and a
   bias b (128 entries): the projected text row is f_m(d) = (sum over k of x_m(k) * w_d(k)) + b(d); a row a is divided
   by max (sqrt (sum of a(d)^2)) eps, eps the value of one f32 word that both programs carry; the result at (n, m) is the
   sum over d of the normalised v_n(d) times the normalised f_m(d).

   The kernel program does this with two kernels: one over 8 blocks of 1024 rows that writes the normalised vision rows
   and the normalised projected text rows, one over 16 slabs of 512 vision rows that takes the inner products against all
   text rows. The reference does it with a transposed-weights product, two norms along the rows, two divisions and a
   product with the transposed text rows. Read index by index both are the function `Cert.CosSim.cosSim` of the four
   arguments (Proof/Spec.lean): the matrix products are plain sums over the contracted index, the lane and host
   reductions plain sums over a row, the transposes renamings of indices, the rounding to sixteen bits the identity.
   No algebraic law beyond that reading is used, so the precondition is never opened.

   The frames of the two kernel programs are the generated ones; the reference's frame is its generated run with the
   result dropped; the idealization rewrote nothing, so `preserves` is `True`. -/
import proofs.«159569_j28037546508716_2_alg».proof.Defs
import proofs.«159569_j28037546508716_2_alg».proof.Proof.Gen.Kernel
import proofs.«159569_j28037546508716_2_alg».proof.Proof.Gen.Kernel.Skeleton
import proofs.«159569_j28037546508716_2_alg».proof.Proof.Gen.Kernel.Launch
import proofs.«159569_j28037546508716_2_alg».proof.Proof.Gen.Kernel.Points
import proofs.«159569_j28037546508716_2_alg».proof.Proof.Gen.Kernel.Frame
import proofs.«159569_j28037546508716_2_alg».proof.Proof.Gen.KernelIdeal
import proofs.«159569_j28037546508716_2_alg».proof.Proof.Gen.KernelIdeal.Skeleton
import proofs.«159569_j28037546508716_2_alg».proof.Proof.Gen.KernelIdeal.Launch
import proofs.«159569_j28037546508716_2_alg».proof.Proof.Gen.KernelIdeal.Points
import proofs.«159569_j28037546508716_2_alg».proof.Proof.Gen.KernelIdeal.Frame
import proofs.«159569_j28037546508716_2_alg».proof.Proof.Gen.ReferenceIdeal
import proofs.«159569_j28037546508716_2_alg».proof.Proof.Gen.Pre_finite_inputs
import proofs.«159569_j28037546508716_2_alg».proof.Proof.Gen.ReferenceIdeal.Run
import proofs.«159569_j28037546508716_2_alg».proof.Proof.Gen.ReferenceIdeal.Read
import proofs.«159569_j28037546508716_2_alg».proof.Proof.KernelRun
import proofs.«159569_j28037546508716_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at the cosine-similarity function of the arguments they were launched with,
    and the arguments agree. -/
theorem algebraic : Cert.algebraic_KernelIdeal_ReferenceIdeal := by
  intro m ρ m' ρ' _ hagree
  refine ⟨fun c => Cert.CosSim.cosSim (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
